-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S32000 : Shape := ⟨1, ![32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S32000 : S_.BroadcastsInDim S32000 (![] : Fin 0 → Fin S32000.rank)
  reducesTo_S32000_S_d0 : S32000.ReducesTo [0] S_

variable [Facts]

def fn {F : FTy → Type} [FloatOps F] (main_arg0 : FVec F S4096x32000 .f32) (main_arg1 : FVec F S4096x32000 .f32) (main_arg2 : FVec F S32000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  let main_v9 : FVec F S32000 .f32 := Host.absf main_arg2
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  main_v13
-- ==== Kernel.lean ====
abbrev S4096x32000 : Shape := ⟨2, ![4096, 32000]⟩
abbrev S32000 : Shape := ⟨1, ![32000]⟩
abbrev S1x32000 : Shape := ⟨2, ![1, 32000]⟩
abbrev S4096 : Shape := ⟨1, ![4096]⟩
abbrev S512x3200 : Shape := ⟨2, ![512, 3200]⟩
abbrev S1x3200 : Shape := ⟨2, ![1, 3200]⟩
abbrev S512 : Shape := ⟨1, ![512]⟩
abbrev S512x1 : Shape := ⟨2, ![512, 1]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S32000, .f32⟩
  | .hbm, ⟨3, _⟩ => ⟨S1x32000, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x3200, .f32⟩
  | .local _ .vmem, ⟨3, _⟩ => ⟨S512x3200, .f32⟩
  | .local _ .vmem, ⟨4, _⟩ => ⟨S1x3200, .f32⟩
  | .local _ .vmem, ⟨5, _⟩ => ⟨S1x3200, .f32⟩
  | .local _ .vmem, ⟨6, _⟩ => ⟨S512, .f32⟩
  | .local _ .vmem, ⟨7, _⟩ => ⟨S512, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v44 : BitVec 1 := Scalar.cmpi .eq arg1 c9_i32
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32000_S1x32000 : S32000.ShapeCasts S1x32000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  reduces_S512x3200_S512 : S512x3200.Reduces [1] S512
  shapeCasts_S512_S512x1 : S512.ShapeCasts S512x1
  broadcasts_S512x1_S512x3200 : S512x1.Broadcasts S512x3200
  shapeCasts_S512x1_S512 : S512x1.ShapeCasts S512
  inb_S512_S512_0 : ∀ a, (![0] : Fin 1 → Nat) a + S512.size a ≤ S512.size a
  h_S512 : 0 < S512.numel
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S4096x32000.size a
  hwx0_0 : ∀ i : grid0.Coords, EltTy.bits .f32 = 32 ∨ (Rect.block (s := S4096x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3200.size a ≤ S4096x32000.size a
  hwx0_1 : ∀ i : grid0.Coords, EltTy.bits .f32 = 32 ∨ (Rect.block (s := S4096x32000) S512x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x32000.size a
  hwx0_2 : ∀ i : grid0.Coords, EltTy.bits .f32 = 32 ∨ (Rect.block (s := S1x32000) S1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)

variable [Facts₀]

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32000 : Shape := ⟨2, ![4096, 32000]⟩
abbrev S32000 : Shape := ⟨1, ![32000]⟩
abbrev S_ : Shape := ⟨0, ![]⟩
abbrev S4096 : Shape := ⟨1, ![4096]⟩
abbrev S4096x1 : Shape := ⟨2, ![4096, 1]⟩
abbrev S1x32000 : Shape := ⟨2, ![1, 32000]⟩

abbrev nBuf : Space → Nat
  | .hbm => 29
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S32000, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x32000, .f32⟩
  | .hbm, ⟨17, _⟩ => ⟨S4096x32000, .f32⟩
  | .hbm, ⟨18, _⟩ => ⟨S1x32000, .f32⟩
  | .hbm, ⟨19, _⟩ => ⟨S4096x32000, .f32⟩
  | .hbm, ⟨20, _⟩ => ⟨S4096x32000, .f32⟩
  | .hbm, ⟨21, _⟩ => ⟨S4096x32000, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  reducesTo_S4096_S_d0 : S4096.ReducesTo [0] S_

variable [Facts₀]

class Facts : Prop extends Facts₀ where

variable [Facts]
-- ==== Proof.Pieces.lean ====
/-
  What the body leaves in its four carried columns and in its output block, case by case, as terms over the body's
  arithmetic. At the first tile of a block of rows (case A) the body first stores the columns (-∞, 0, 0, 0) and reads them
  back; at a later tile (cases B, C) it reads what the tile before left. In every case the four columns end at
    the new maximum, the rescaled sum of exponentials, the weighted sum of logits, the sum of weights
  of the tile and the columns it started from; at the last tile (case C) the output block is the loss computed from the
  four columns just stored. Each is one covering store, read back whole.
-/
import proofs.«112712_j58497454571824_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-! ## The first tile of a block of rows -/

/-- The maximum column after the first tile: the tile's row maxima against the stored -∞. -/
theorem first_max (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 x1 : Vec F S512x3200 .f32) (x2 : Vec F S1x3200 .f32) :
    sout0_A_0 c i arg2 harg2 arg3 harg3 arg4 harg4 arg5 harg5 arg6 harg6 arg7 harg7 arg8 harg8 arg9 harg9 hc0 hc1 x0 x1 x2 = k0_pay2 (k0_pay9 x0 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of sums of shifted exponentials after the first tile, from the stored -∞ and 0. -/
theorem first_expsum (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 x1 : Vec F S512x3200 .f32) (x2 : Vec F S1x3200 .f32) :
    sout0_A_1 c i arg2 harg2 arg3 harg3 arg4 harg4 arg5 harg5 arg6 harg6 arg7 harg7 arg8 harg8 arg9 harg9 hc0 hc1 x0 x1 x2 = k0_pay10 x0 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of weighted sums of logits after the first tile, from the stored 0. -/
theorem first_wx (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 x1 : Vec F S512x3200 .f32) (x2 : Vec F S1x3200 .f32) :
    sout0_A_2 c i arg2 harg2 arg3 harg3 arg4 harg4 arg5 harg5 arg6 harg6 arg7 harg7 arg8 harg8 arg9 harg9 hc0 hc1 x0 x1 x2 = k0_pay11 x0 x1 x2 k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of sums of weights after the first tile, from the stored 0. -/
theorem first_w (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 x1 : Vec F S512x3200 .f32) (x2 : Vec F S1x3200 .f32) :
    sout0_A_3 c i arg2 harg2 arg3 harg3 arg4 harg4 arg5 harg5 arg6 harg6 arg7 harg7 arg8 harg8 arg9 harg9 hc0 hc1 x0 x1 x2 = k0_pay1 (k0_pay8 x1 x2) k0_pay7 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-! ## A tile between the first and the last -/

/-- The maximum column after a middle tile. -/
theorem mid_max (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 x1 : Vec F S512x3200 .f32) (x2 : Vec F S1x3200 .f32) (xs0 xs1 xs2 xs3 : Vec F S512x1 .f32) :
    sout0_B_0 c i arg2 harg2 arg3 harg3 arg4 harg4 arg5 harg5 arg6 harg6 arg7 harg7 arg8 harg8 arg9 harg9 hc0 hc1 x0 x1 x2 xs0 xs1 xs2 xs3 = k0_pay2 (k0_pay9 x0 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of sums of shifted exponentials after a middle tile. -/
theorem mid_expsum (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 x1 : Vec F S512x3200 .f32) (x2 : Vec F S1x3200 .f32) (xs0 xs1 xs2 xs3 : Vec F S512x1 .f32) :
    sout0_B_1 c i arg2 harg2 arg3 harg3 arg4 harg4 arg5 harg5 arg6 harg6 arg7 harg7 arg8 harg8 arg9 harg9 hc0 hc1 x0 x1 x2 xs0 xs1 xs2 xs3 = k0_pay10 x0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of weighted sums of logits after a middle tile. -/
theorem mid_wx (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 x1 : Vec F S512x3200 .f32) (x2 : Vec F S1x3200 .f32) (xs0 xs1 xs2 xs3 : Vec F S512x1 .f32) :
    sout0_B_2 c i arg2 harg2 arg3 harg3 arg4 harg4 arg5 harg5 arg6 harg6 arg7 harg7 arg8 harg8 arg9 harg9 hc0 hc1 x0 x1 x2 xs0 xs1 xs2 xs3 = k0_pay11 x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of sums of weights after a middle tile. -/
theorem mid_w (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 x1 : Vec F S512x3200 .f32) (x2 : Vec F S1x3200 .f32) (xs0 xs1 xs2 xs3 : Vec F S512x1 .f32) :
    sout0_B_3 c i arg2 harg2 arg3 harg3 arg4 harg4 arg5 harg5 arg6 harg6 arg7 harg7 arg8 harg8 arg9 harg9 hc0 hc1 x0 x1 x2 xs0 xs1 xs2 xs3 = k0_pay1 (k0_pay8 x1 x2) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-! ## The last tile -/

/-- The maximum column after the last tile. -/
theorem last_max (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (xs0 xs1 xs2 xs3 : Vec F S512x1 .f32) :
    sout0_C_0 c i arg2 harg2 arg3 harg3 arg4 harg4 arg5 harg5 arg6 harg6 arg7 harg7 arg8 harg8 arg9 harg9 hc0 hc1 x0 x1 x2 xs0 xs1 xs2 xs3 = k0_pay2 (k0_pay9 x0 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of sums of shifted exponentials after the last tile. -/
theorem last_expsum (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (xs0 xs1 xs2 xs3 : Vec F S512x1 .f32) :
    sout0_C_1 c i arg2 harg2 arg3 harg3 arg4 harg4 arg5 harg5 arg6 harg6 arg7 harg7 arg8 harg8 arg9 harg9 hc0 hc1 x0 x1 x2 xs0 xs1 xs2 xs3 = k0_pay10 x0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of weighted sums of logits after the last tile. -/
theorem last_wx (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (xs0 xs1 xs2 xs3 : Vec F S512x1 .f32) :
    sout0_C_2 c i arg2 harg2 arg3 harg3 arg4 harg4 arg5 harg5 arg6 harg6 arg7 harg7 arg8 harg8 arg9 harg9 hc0 hc1 x0 x1 x2 xs0 xs1 xs2 xs3 = k0_pay11 x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The column of sums of weights after the last tile. -/
theorem last_w (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (xs0 xs1 xs2 xs3 : Vec F S512x1 .f32) :
    sout0_C_3 c i arg2 harg2 arg3 harg3 arg4 harg4 arg5 harg5 arg6 harg6 arg7 harg7 arg8 harg8 arg9 harg9 hc0 hc1 x0 x1 x2 xs0 xs1 xs2 xs3 = k0_pay1 (k0_pay8 x1 x2) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S512x1) hz2]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

/-- The output block after the last tile: the loss from the four columns just stored. -/
theorem last_out (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (xs0 xs1 xs2 xs3 : Vec F S512x1 .f32) :
    out0_C_3 c i arg2 harg2 arg3 harg3 arg4 harg4 arg5 harg5 arg6 harg6 arg7 harg7 arg8 harg8 arg9 harg9 hc0 hc1 x0 x1 x2 xs0 xs1 xs2 xs3 = k0_pay3 (k0_pay2 (k0_pay9 x0 xs0)) (k0_pay10 x0 xs0 xs1) (k0_pay11 x0 x1 x2 xs2) (k0_pay1 (k0_pay8 x1 x2) xs3) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S512) hz1]
  simp only [View.readCov_unit_zero (S := S512x1) _ hz2, View.readAt_eq_ld, harg2.read_unread, harg3.read_unread, harg4.read_unread,
    harg6.read_unread, harg7.read_unread, harg8.read_unread, harg9.read_unread, View.ld_unit_zero (S := S512x3200) hz2,
    View.ld_unit_zero (S := S512x1) hz2, View.ld_unit_zero (S := S1x3200) hz2]

end Cert.KernelIdeal.Pieces

end
-- ==== Proof.Carried.lean ====
/-
  The four carried columns after each grid point, as a recursion over the points, and the output block at a last tile.

  The 80 points run over 8 blocks of 512 rows, 10 column tiles each, the tile index moving fastest: point n works on block
  n / 10 and tile n % 10. At a point with n % 10 = 0 the columns restart from (-∞, 0, 0, 0); at every other point they
  continue from what point n - 1 left. At a point with n % 10 = 9 the output block is the loss computed from the columns
  that point leaves.
-/
import proofs.«112712_j58497454571824_1_alg».proof.Proof.Pieces

noncomputable section

namespace Cert.KernelIdeal.Carried

open Cert.KernelIdeal Cert.KernelIdeal.Gen Cert.KernelIdeal.Pieces Idealize.ShloMosaic Idealize.ShloMosaic.TcCoe Idealize.SL.Sem

variable {F : FTy → Type} [FloatOps F]

/-- The four carried columns: maxima, sums of shifted exponentials, weighted sums of logits, sums of weights. -/
abbrev Cols (F : FTy → Type) : Type := Vec F S512x1 .f32 × Vec F S512x1 .f32 × Vec F S512x1 .f32 × Vec F S512x1 .f32

/-- What a block of rows starts from. -/
def cols0 : Cols F := (k0_pay4, k0_pay5, k0_pay6, k0_pay7)

/-- One point's update of the four columns by its tile of logits, its tile of targets and its row of weights. -/
def next (x0 x1 : Vec F S512x3200 .f32) (x2 : Vec F S1x3200 .f32) (s : Cols F) : Cols F :=
  (k0_pay2 (k0_pay9 x0 s.1), k0_pay10 x0 s.1 s.2.1, k0_pay11 x0 x1 x2 s.2.2.1, k0_pay1 (k0_pay8 x1 x2) s.2.2.2)

/-- The first tile's four columns, together. -/
theorem first_cols (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 x1 : Vec F S512x3200 .f32) (x2 : Vec F S1x3200 .f32) :
    (sout0_A_0 c i arg2 harg2 arg3 harg3 arg4 harg4 arg5 harg5 arg6 harg6 arg7 harg7 arg8 harg8 arg9 harg9 hc0 hc1 x0 x1 x2, sout0_A_1 c i arg2 harg2 arg3 harg3 arg4 harg4 arg5 harg5 arg6 harg6 arg7 harg7 arg8 harg8 arg9 harg9 hc0 hc1 x0 x1 x2, sout0_A_2 c i arg2 harg2 arg3 harg3 arg4 harg4 arg5 harg5 arg6 harg6 arg7 harg7 arg8 harg8 arg9 harg9 hc0 hc1 x0 x1 x2,
        sout0_A_3 c i arg2 harg2 arg3 harg3 arg4 harg4 arg5 harg5 arg6 harg6 arg7 harg7 arg8 harg8 arg9 harg9 hc0 hc1 x0 x1 x2) = next x0 x1 x2 cols0 := by
  rw [first_max, first_expsum, first_wx, first_w]; rfl

/-- A middle tile's four columns, together, from the columns `s` before. -/
theorem mid_cols (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 x1 : Vec F S512x3200 .f32) (x2 : Vec F S1x3200 .f32) (s : Cols F) :
    (sout0_B_0 c i arg2 harg2 arg3 harg3 arg4 harg4 arg5 harg5 arg6 harg6 arg7 harg7 arg8 harg8 arg9 harg9 hc0 hc1 x0 x1 x2 s.1 s.2.1 s.2.2.1 s.2.2.2, sout0_B_1 c i arg2 harg2 arg3 harg3 arg4 harg4 arg5 harg5 arg6 harg6 arg7 harg7 arg8 harg8 arg9 harg9 hc0 hc1 x0 x1 x2 s.1 s.2.1 s.2.2.1 s.2.2.2,
        sout0_B_2 c i arg2 harg2 arg3 harg3 arg4 harg4 arg5 harg5 arg6 harg6 arg7 harg7 arg8 harg8 arg9 harg9 hc0 hc1 x0 x1 x2 s.1 s.2.1 s.2.2.1 s.2.2.2, sout0_B_3 c i arg2 harg2 arg3 harg3 arg4 harg4 arg5 harg5 arg6 harg6 arg7 harg7 arg8 harg8 arg9 harg9 hc0 hc1 x0 x1 x2 s.1 s.2.1 s.2.2.1 s.2.2.2)
      = next x0 x1 x2 s := by
  rw [mid_max, mid_expsum, mid_wx, mid_w]; rfl

/-- The last tile's four columns, together, from the columns `s` before. -/
theorem last_cols (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (s : Cols F) :
    (sout0_C_0 c i arg2 harg2 arg3 harg3 arg4 harg4 arg5 harg5 arg6 harg6 arg7 harg7 arg8 harg8 arg9 harg9 hc0 hc1 x0 x1 x2 s.1 s.2.1 s.2.2.1 s.2.2.2, sout0_C_1 c i arg2 harg2 arg3 harg3 arg4 harg4 arg5 harg5 arg6 harg6 arg7 harg7 arg8 harg8 arg9 harg9 hc0 hc1 x0 x1 x2 s.1 s.2.1 s.2.2.1 s.2.2.2,
        sout0_C_2 c i arg2 harg2 arg3 harg3 arg4 harg4 arg5 harg5 arg6 harg6 arg7 harg7 arg8 harg8 arg9 harg9 hc0 hc1 x0 x1 x2 s.1 s.2.1 s.2.2.1 s.2.2.2, sout0_C_3 c i arg2 harg2 arg3 harg3 arg4 harg4 arg5 harg5 arg6 harg6 arg7 harg7 arg8 harg8 arg9 harg9 hc0 hc1 x0 x1 x2 s.1 s.2.1 s.2.2.1 s.2.2.2)
      = next x0 x1 x2 s := by
  rw [last_max, last_expsum, last_wx, last_w]; rfl

/-- The last tile's output block: the loss from the columns the tile leaves. -/
theorem last_block (c : Dev nD) (i : grid0.Coords) (arg2 : Memref sig .tc .vmem S512x3200 .f32) (harg2 : arg2.IsWhole) (arg3 : Memref sig .tc .vmem S512x3200 .f32) (harg3 : arg3.IsWhole) (arg4 : Memref sig .tc .vmem S1x3200 .f32) (harg4 : arg4.IsWhole) (arg5 : Memref sig .tc .vmem S512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 x1 : Vec F S512x3200 .f32) (x2 : Vec F S1x3200 .f32) (s : Cols F) :
    out0_C_3 c i arg2 harg2 arg3 harg3 arg4 harg4 arg5 harg5 arg6 harg6 arg7 harg7 arg8 harg8 arg9 harg9 hc0 hc1 x0 x1 x2 s.1 s.2.1 s.2.2.1 s.2.2.2
      = k0_pay3 (next x0 x1 x2 s).1 (next x0 x1 x2 s).2.1 (next x0 x1 x2 s).2.2.1 (next x0 x1 x2 s).2.2.2 := by
  rw [last_out]; rfl

variable (m : (ℓ : Loc nD τ sig) → Buf (Elt F) ℓ)

/-- The four columns after point `n`. -/
def cols (c : Dev nD) : (n : ℕ) → n < cfg0.N → Cols F
  | 0, h => next (iblk m c 0 ⟨0, h⟩) (iblk m c 1 ⟨0, h⟩) (iblk m c 2 ⟨0, h⟩) cols0
  | n + 1, h => next (iblk m c 0 ⟨n + 1, h⟩) (iblk m c 1 ⟨n + 1, h⟩) (iblk m c 2 ⟨n + 1, h⟩)
      (if (n + 1) % 10 = 0 then cols0 else cols c n (Nat.lt_of_succ_lt h))

theorem cols_zero (c : Dev nD) (h : 0 < cfg0.N) :
    cols m c 0 h = next (iblk m c 0 ⟨0, h⟩) (iblk m c 1 ⟨0, h⟩) (iblk m c 2 ⟨0, h⟩) cols0 := rfl

theorem cols_succ (c : Dev nD) (n : ℕ) (h : n + 1 < cfg0.N) :
    cols m c (n + 1) h = next (iblk m c 0 ⟨n + 1, h⟩) (iblk m c 1 ⟨n + 1, h⟩) (iblk m c 2 ⟨n + 1, h⟩)
      (if (n + 1) % 10 = 0 then cols0 else cols m c n (Nat.lt_of_succ_lt h)) := rfl

/-- The columns the generated run carries are these. -/
theorem outsAt_cols (c : Dev nD) : ∀ (n : ℕ) (h : n < cfg0.N), (outsAt0 m c n h).2 = cols m c n h
  | 0, h => by
    let t : Fin cfg0.N := ⟨0, h⟩
    refine (congrArg Prod.snd (outsAt0_A m c t (Nat.zero_mod _) (by show ¬(0 % 10 = 9); decide))).trans ?_
    exact first_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) _ _ (iblk m c 0 t) (iblk m c 1 t) (iblk m c 2 t)
  | n + 1, h => by
    let t : Fin cfg0.N := ⟨n + 1, h⟩
    rw [cols_succ]
    by_cases h0 : (n + 1) % 10 = 0
    · have h1 : ¬(n + 1) % 10 = 9 := by omega
      rw [if_pos h0]
      refine (congrArg Prod.snd (outsAt0_A m c t h0 h1)).trans ?_
      exact first_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) _ _ (iblk m c 0 t) (iblk m c 1 t) (iblk m c 2 t)
    · rw [if_neg h0, ← outsAt_cols c n (Nat.lt_of_succ_lt h)]
      by_cases h1 : (n + 1) % 10 = 9
      · refine (congrArg Prod.snd (outsAt0_C m c t h0 h1)).trans ?_
        exact last_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) _ _ (iblk m c 0 t) (iblk m c 1 t) (iblk m c 2 t) (outsAt0 m c n (Nat.lt_of_succ_lt h)).2
      · refine (congrArg Prod.snd (outsAt0_B m c t h0 h1)).trans ?_
        exact mid_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) _ _ (iblk m c 0 t) (iblk m c 1 t) (iblk m c 2 t) (outsAt0 m c n (Nat.lt_of_succ_lt h)).2

/-- At a last tile the output block the generated run holds is the loss from that point's columns. -/
theorem outsAt_block (c : Dev nD) : ∀ (n : ℕ) (h : n < cfg0.N), n % 10 = 9 →
    (outsAt0 m c n h).1 = k0_pay3 (cols m c n h).1 (cols m c n h).2.1 (cols m c n h).2.2.1 (cols m c n h).2.2.2
  | 0, h, h9 => by exfalso; revert h9; decide
  | n + 1, h, h9 => by
    let t : Fin cfg0.N := ⟨n + 1, h⟩
    have h0 : ¬(n + 1) % 10 = 0 := by omega
    rw [cols_succ, if_neg h0, ← outsAt_cols m c n (Nat.lt_of_succ_lt h)]
    refine (congrArg Prod.fst (outsAt0_C m c t h0 h9)).trans ?_
    exact last_block c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun hh => h0 ((hcond0_0 t).mp hh)) ((hcond0_1 t).mpr h9)
      (iblk m c 0 t) (iblk m c 1 t) (iblk m c 2 t) (outsAt0 m c n (Nat.lt_of_succ_lt h)).2

end Cert.KernelIdeal.Carried

end
-- ==== Proof.RowAlgebra.lean ====
/-
  One row of a soft-target cross entropy, computed two ways over the extended reals.

  STREAMED: the row's columns arrive tile by tile; a running state (m, l, a, b) is kept, where after a tile
  m is the largest logit seen, l the sum of exp (x - m) over the columns seen, a the sum of (t·w)·x and b the sum of t·w.
  A new tile with maximum c replaces m by m' = max m c and l by exp (m - m') · l + Σ exp (x - m'): the old terms are
  rescaled to the new shift. After the last tile the row's loss is (0 - a) + (m + log l) · b.

  WHOLE ROW: with M the row's maximum, the loss is - (0 + Σ (t·w) · ((x - M) - log (0 + Σ exp (x - M)))).

  For FINITE logits, targets and weights both are the real number  - Σ (t·w)·x + (log Σ exp x) · Σ t·w :
  the shift cancels, m + log Σ exp (x - m) = log Σ exp x for every real m, so neither side depends on which
  shift it used, and the rest is distributivity in ℝ. The streamed form starts from m = -∞, l = 0: its first
  rescaling factor is exp (-∞) = 0 against l = 0, and the product is 0.
-/
import Idealize.ShloMosaic.PureOps.Ideal
import Mathlib.Analysis.SpecialFunctions.Log.Basic
import Mathlib.Data.Finset.Fold

noncomputable section

namespace Cert.SoftCE

open Idealize.ShloMosaic

/-! ## Real sums and maxima as extended reals -/

/-- The embedding of ℝ commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum, taken from -∞, of finitely many reals over a nonempty index set is a real. -/
theorem fold_max_real {n : ℕ} (hn : 0 < n) (xr : Fin n → ℝ) :
    ∃ γ : ℝ, (Finset.univ : Finset (Fin n)).fold max (⊥ : EReal) (fun q => (xr q : EReal)) = (γ : EReal) := by
  have htop : (Finset.univ : Finset (Fin n)).fold max (⊥ : EReal) (fun q => (xr q : EReal)) ≠ ⊤ :=
    ne_of_lt ((Finset.fold_max_lt _).mpr ⟨bot_lt_top, fun q _ => EReal.coe_lt_top _⟩)
  have hbot : (Finset.univ : Finset (Fin n)).fold max (⊥ : EReal) (fun q => (xr q : EReal)) ≠ ⊥ :=
    ne_of_gt ((Finset.lt_fold_max _).mpr (Or.inr ⟨⟨0, hn⟩, Finset.mem_univ _, EReal.bot_lt_coe _⟩))
  exact ⟨_, (EReal.coe_toReal htop hbot).symm⟩

/-- The embedding of ℝ commutes with the maximum of two reals. -/
theorem coe_max (a b : ℝ) : ((max a b : ℝ) : EReal) = max (a : EReal) (b : EReal) :=
  EReal.coe_strictMono.monotone.map_max

/-- The shift cancels: m + log Σ exp (f - m) = log Σ exp f. -/
theorem shift_log_sum_exp {ι : Type*} (s : Finset ι) (hs : s.Nonempty) (f : ι → ℝ) (μ : ℝ) :
    μ + Real.log (∑ i ∈ s, Real.exp (f i - μ)) = Real.log (∑ i ∈ s, Real.exp (f i)) := by
  have h1 : ∑ i ∈ s, Real.exp (f i - μ) = Real.exp (-μ) * ∑ i ∈ s, Real.exp (f i) := by
    rw [Finset.mul_sum]
    exact Finset.sum_congr rfl fun i _ => by rw [← Real.exp_add]; congr 1; ring
  have hpos : 0 < ∑ i ∈ s, Real.exp (f i) := Finset.sum_pos (fun i _ => Real.exp_pos _) hs
  rw [h1, Real.log_mul (Real.exp_pos _).ne' hpos.ne', Real.log_exp]
  ring

/-! ## The streamed form -/

/-- A row's running state: the maximum so far, the sum of shifted exponentials, the weighted sum of logits, the sum of weights. -/
abbrev State := EReal × EReal × EReal × EReal

/-- Before the first tile. -/
def start : State := (⊥, 0, 0, 0)

/-- One tile's update of a row's state. -/
def step {n : ℕ} (xs ts ws : Fin n → EReal) (s : State) : State :=
  (max s.1 (Finset.univ.fold max ⊥ xs),
   Ideal.exp (s.1 - max s.1 (Finset.univ.fold max ⊥ xs)) * s.2.1
     + ∑ q, Ideal.exp (xs q - max s.1 (Finset.univ.fold max ⊥ xs)),
   s.2.2.1 + ∑ q, ts q * ws q * xs q,
   s.2.2.2 + ∑ q, ts q * ws q)

/-- The state after tiles 0 … k. -/
def run {n : ℕ} (xs ts ws : ℕ → Fin n → EReal) : ℕ → State
  | 0 => step (xs 0) (ts 0) (ws 0) start
  | k + 1 => step (xs (k + 1)) (ts (k + 1)) (ws (k + 1)) (run xs ts ws k)

/-- The row's loss from the last state. -/
def finish (s : State) : EReal := (0 - s.2.2.1) + (s.1 + Ideal.log s.2.1) * s.2.2.2

/-- A real state updated by a real tile is a real state, with the old exponentials rescaled to the new shift. -/
theorem step_real {n : ℕ} (hn : 0 < n) (xr tr wr : Fin n → ℝ) (μ l a b : ℝ) :
    ∃ μ' : ℝ, step (fun q => (xr q : EReal)) (fun q => (tr q : EReal)) (fun q => (wr q : EReal)) ((μ : EReal), (l : EReal), (a : EReal), (b : EReal))
      = ((μ' : EReal), ((Real.exp (μ - μ') * l + ∑ q, Real.exp (xr q - μ') : ℝ) : EReal),
          ((a + ∑ q, tr q * wr q * xr q : ℝ) : EReal), ((b + ∑ q, tr q * wr q : ℝ) : EReal)) := by
  obtain ⟨γ, hγ⟩ := fold_max_real hn xr
  refine ⟨max μ γ, ?_⟩
  unfold step
  simp only [hγ, ← coe_max, ← EReal.coe_sub, Ideal.exp_coe, ← EReal.coe_mul, ← coe_sum, ← EReal.coe_add]

/-- The first tile: the rescaling factor exp (-∞ - m') = 0 meets l = 0. -/
theorem step_start {n : ℕ} (hn : 0 < n) (xr tr wr : Fin n → ℝ) :
    ∃ μ' : ℝ, step (fun q => (xr q : EReal)) (fun q => (tr q : EReal)) (fun q => (wr q : EReal)) start
      = ((μ' : EReal), ((∑ q, Real.exp (xr q - μ') : ℝ) : EReal),
          ((∑ q, tr q * wr q * xr q : ℝ) : EReal), ((∑ q, tr q * wr q : ℝ) : EReal)) := by
  obtain ⟨γ, hγ⟩ := fold_max_real hn xr
  refine ⟨γ, ?_⟩
  unfold step start
  simp only [hγ, max_eq_right (bot_le : (⊥ : EReal) ≤ (γ : EReal)), mul_zero, zero_add, ← EReal.coe_sub, Ideal.exp_coe,
    ← EReal.coe_mul, ← coe_sum]

/-- After tiles 0 … K of real data the state is real: l is the sum of exp (x - m) over every column seen, a and b the
    plain sums. -/
theorem run_real {n : ℕ} (hn : 0 < n) (xr tr wr : ℕ → Fin n → ℝ) (K : ℕ) :
    ∃ μ : ℝ, run (fun k q => (xr k q : EReal)) (fun k q => (tr k q : EReal)) (fun k q => (wr k q : EReal)) K
      = ((μ : EReal), ((∑ k ∈ Finset.range (K + 1), ∑ q, Real.exp (xr k q - μ) : ℝ) : EReal),
          ((∑ k ∈ Finset.range (K + 1), ∑ q, tr k q * wr k q * xr k q : ℝ) : EReal),
          ((∑ k ∈ Finset.range (K + 1), ∑ q, tr k q * wr k q : ℝ) : EReal)) := by
  induction K with
  | zero =>
    obtain ⟨μ, h⟩ := step_start hn (xr 0) (tr 0) (wr 0)
    exact ⟨μ, by simp only [run, Finset.range_one, Finset.sum_singleton, zero_add]; exact h⟩
  | succ K ih =>
    obtain ⟨μ, h⟩ := ih
    obtain ⟨μ', h'⟩ := step_real hn (xr (K + 1)) (tr (K + 1)) (wr (K + 1)) μ
      (∑ k ∈ Finset.range (K + 1), ∑ q, Real.exp (xr k q - μ))
      (∑ k ∈ Finset.range (K + 1), ∑ q, tr k q * wr k q * xr k q)
      (∑ k ∈ Finset.range (K + 1), ∑ q, tr k q * wr k q)
    refine ⟨μ', ?_⟩
    show step _ _ _ (run _ _ _ K) = _
    rw [h, h']
    have e : Real.exp (μ - μ') * ∑ k ∈ Finset.range (K + 1), ∑ q, Real.exp (xr k q - μ)
        = ∑ k ∈ Finset.range (K + 1), ∑ q, Real.exp (xr k q - μ') := by
      rw [Finset.mul_sum]
      refine Finset.sum_congr rfl fun k _ => ?_
      rw [Finset.mul_sum]
      refine Finset.sum_congr rfl fun q _ => ?_
      rw [← Real.exp_add]; congr 1; ring
    rw [e, Finset.sum_range_succ (fun k => ∑ q, Real.exp (xr k q - μ')) (K + 1),
      Finset.sum_range_succ (fun k => ∑ q, tr k q * wr k q * xr k q) (K + 1),
      Finset.sum_range_succ (fun k => ∑ q, tr k q * wr k q) (K + 1)]

/-- The loss from a real state with l > 0. -/
theorem finish_real (μ l a b : ℝ) (hl : 0 < l) :
    finish ((μ : EReal), (l : EReal), (a : EReal), (b : EReal)) = ((-a + (μ + Real.log l) * b : ℝ) : EReal) := by
  unfold finish
  simp only [Ideal.log_coe, if_neg (not_le.mpr hl)]
  rw [← EReal.coe_zero, ← EReal.coe_sub, ← EReal.coe_add, ← EReal.coe_mul, ← EReal.coe_add]
  congr 1; ring

/-- THE STREAMED ROW: finite data, tiles 0 … K. -/
theorem streamed_real {n : ℕ} (hn : 0 < n) (xr tr wr : ℕ → Fin n → ℝ) (K : ℕ) :
    finish (run (fun k q => (xr k q : EReal)) (fun k q => (tr k q : EReal)) (fun k q => (wr k q : EReal)) K)
      = ((-(∑ k ∈ Finset.range (K + 1), ∑ q, tr k q * wr k q * xr k q)
          + Real.log (∑ k ∈ Finset.range (K + 1), ∑ q, Real.exp (xr k q)) * ∑ k ∈ Finset.range (K + 1), ∑ q, tr k q * wr k q : ℝ) : EReal) := by
  obtain ⟨μ, h⟩ := run_real hn xr tr wr K
  have hne : (Finset.range (K + 1) ×ˢ (Finset.univ : Finset (Fin n))).Nonempty :=
    ⟨(0, ⟨0, hn⟩), Finset.mem_product.mpr ⟨Finset.mem_range.mpr (Nat.succ_pos K), Finset.mem_univ _⟩⟩
  have hl : 0 < ∑ k ∈ Finset.range (K + 1), ∑ q, Real.exp (xr k q - μ) := by
    rw [← Finset.sum_product' (Finset.range (K + 1)) Finset.univ (fun k q => Real.exp (xr k q - μ))]
    exact Finset.sum_pos (fun _ _ => Real.exp_pos _) hne
  rw [h, finish_real _ _ _ _ hl]
  have hs := shift_log_sum_exp (Finset.range (K + 1) ×ˢ (Finset.univ : Finset (Fin n))) hne (fun p => xr p.1 p.2) μ
  rw [Finset.sum_product' (Finset.range (K + 1)) Finset.univ (fun k q => Real.exp (xr k q - μ)),
    Finset.sum_product' (Finset.range (K + 1)) Finset.univ (fun k q => Real.exp (xr k q))] at hs
  rw [hs]

/-! ## The whole row -/

/-- The loss of a whole row, its logits shifted by the row's maximum (taken from -∞, and once more against -∞). -/
def whole {N : ℕ} (x t w : Fin N → EReal) : EReal :=
  -(0 + ∑ j, t j * w j * ((x j - max ⊥ (Finset.univ.fold max ⊥ x))
      - Ideal.log (0 + ∑ j', Ideal.exp (x j' - max ⊥ (Finset.univ.fold max ⊥ x)))))

/-- THE WHOLE ROW: finite data. -/
theorem whole_real {N : ℕ} (hN : 0 < N) (xr tr wr : Fin N → ℝ) :
    whole (fun j => (xr j : EReal)) (fun j => (tr j : EReal)) (fun j => (wr j : EReal))
      = ((-(∑ j, tr j * wr j * xr j) + Real.log (∑ j, Real.exp (xr j)) * ∑ j, tr j * wr j : ℝ) : EReal) := by
  obtain ⟨γ, hγ⟩ := fold_max_real hN xr
  have hne : (Finset.univ : Finset (Fin N)).Nonempty := ⟨⟨0, hN⟩, Finset.mem_univ _⟩
  have hl : 0 < ∑ j, Real.exp (xr j - γ) := Finset.sum_pos (fun _ _ => Real.exp_pos _) hne
  unfold whole
  simp only [hγ, max_eq_right (bot_le : (⊥ : EReal) ≤ (γ : EReal)), zero_add, ← EReal.coe_sub, Ideal.exp_coe, ← coe_sum,
    Ideal.log_coe, if_neg (not_le.mpr hl), ← EReal.coe_mul, ← EReal.coe_neg]
  congr 1
  have hs := shift_log_sum_exp Finset.univ hne xr γ
  have e : ∀ j, tr j * wr j * (xr j - γ - Real.log (∑ j', Real.exp (xr j' - γ)))
      = tr j * wr j * xr j - (γ + Real.log (∑ j', Real.exp (xr j' - γ))) * (tr j * wr j) := fun j => by ring
  rw [Finset.sum_congr rfl fun j _ => e j, Finset.sum_sub_distrib, ← Finset.mul_sum, hs]
  ring

/-! ## Tiles against the whole row -/

/-- Columns b·k + q, over tiles k < a and q < b, are the columns below a·b. -/
theorem sum_tiles (a b : ℕ) (G : ℕ → ℝ) :
    ∑ k ∈ Finset.range a, ∑ q : Fin b, G (b * k + q.val) = ∑ j : Fin (a * b), G j.val := by
  rw [Fin.sum_univ_eq_sum_range (fun j => G j) (a * b)]
  induction a with
  | zero => simp
  | succ a ih =>
    rw [Finset.sum_range_succ, ih, Nat.succ_mul, Finset.sum_range_add, Fin.sum_univ_eq_sum_range (fun q => G (b * a + q)) b,
      Nat.mul_comm b a]

/-- THE TWO FORMS AGREE on finite data: K + 1 tiles of width b against the row of (K + 1)·b columns. -/
theorem streamed_eq_whole {b : ℕ} (hb : 0 < b) (K N : ℕ) (hN : N = (K + 1) * b) (XR TR WR : ℕ → ℝ) :
    finish (run (fun k (q : Fin b) => (XR (b * k + q.val) : EReal)) (fun k q => (TR (b * k + q.val) : EReal))
        (fun k q => (WR (b * k + q.val) : EReal)) K)
      = whole (fun j : Fin N => (XR j.val : EReal)) (fun j => (TR j.val : EReal)) (fun j => (WR j.val : EReal)) := by
  subst hN
  rw [streamed_real hb (fun k q => XR (b * k + q.val)) (fun k q => TR (b * k + q.val)) (fun k q => WR (b * k + q.val)) K,
    whole_real (Nat.mul_pos (Nat.succ_pos K) hb) (fun j => XR j.val) (fun j => TR j.val) (fun j => WR j.val),
    sum_tiles (K + 1) b (fun j => TR j * WR j * XR j), sum_tiles (K + 1) b (fun j => Real.exp (XR j)),
    sum_tiles (K + 1) b (fun j => TR j * WR j)]

end Cert.SoftCE

end
-- ==== Proof.Layout.lean ====
/-
  Three layout operations of a row reduction kept as a column, read at an index: a vector [a] cast to a column [a, 1]
  and back, and a column [a, 1] broadcast along its unit axis to [a, b]. Each reads its operand at the row's coordinate.
-/
import Idealize.ShloMosaic.Lib.Pipeline.Value
import Idealize.ShloMosaic.Lib.ValueIdx

namespace Cert.SoftCE.Layout

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array cast to `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.SoftCE.Layout
-- ==== Proof.TileStep.lean ====
/-
  What the body computes at one grid point, row by row, over the extended reals.

  The body holds a tile x of logits (512 rows × 3200 columns), the same tile t of targets, one row w of class weights,
  and four columns m, l, a, b (512 × 1) carried from the point before. Row p of the new columns is the streamed
  update (RowAlgebra.lean, `step`) of row p of the old ones by row p of the tile:
    m' = max m (max over the row of x),  l' = exp (m - m') · l + Σ exp (x - m'),  a' = a + Σ (t·w)·x,  b' = b + Σ t·w,
  and the value stored at the last tile is (0 - a) + (m + log l) · b (`finish`). The sums and the maximum are lane
  reductions kept as a column; the weights' row and the column m' are broadcast over the tile.
-/
import proofs.«112712_j58497454571824_1_alg».proof.Proof.Gen.KernelIdeal.Skeleton
import proofs.«112712_j58497454571824_1_alg».proof.Proof.RowAlgebra
import proofs.«112712_j58497454571824_1_alg».proof.Proof.Layout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.SoftCE Cert.SoftCE.Layout

/-- The word 0xFF800000 is -∞. -/
theorem neg_inf : Ideal.ofBits .f32 0xFF800000#32 = (⊥ : EReal) := by simp [Ideal.ofBits, Ideal.ieee]

theorem exp_apply {s : Shape} (a : FVec Ideal s .f32) (i : s.Idx) : exp a i = Ideal.exp (a i) := rfl
theorem log_apply {s : Shape} (a : FVec Ideal s .f32) (i : s.Idx) : log a i = Ideal.log (a i) := rfl

/-- A tile's maximum along its rows, from -∞, at row p. -/
theorem rowmax_apply (x : FVec Ideal S512x3200 .f32) (h1 : FKind.Formats .f32)
    (h2 : (0xFF800000#32 : BitVec FTy.f32.bits) = FKind.maximumf.neutral .f32 h1) (p : Fin 512) :
    multiReduction .maximumf [1] S512 x 0xFF800000#32 reduces_S512x3200_S512 h1 h2 (ix1 p)
      = Finset.univ.fold max ⊥ (fun q : Fin 3200 => x (ix2 p q)) := by
  refine (Ideal.multiReduction_maximumf_single x _ reduces_S512x3200_S512 h1 h2 (ix1 p)).trans ?_
  show Finset.univ.fold max (Ideal.ofBits .f32 0xFF800000#32) (fun q : Fin 3200 => x (reduces_S512x3200_S512.lift (ix1 p) q)) = _
  rw [neg_inf]
  refine congrArg (fun f => Finset.univ.fold max (⊥ : EReal) f) (funext fun q => ?_)
  exact congrArg x (funext fun a => Fin.ext (by match a with | ⟨0, _⟩ => rfl | ⟨1, _⟩ => rfl))

/-- A tile's sum along its rows at row p. -/
theorem rowsum_apply (x : FVec Ideal S512x3200 .f32) (h1 : FKind.Formats .f32)
    (h2 : (0x00000000#32 : BitVec FTy.f32.bits) = FKind.add.neutral .f32 h1) (p : Fin 512) :
    multiReduction .add [1] S512 x 0x00000000#32 reduces_S512x3200_S512 h1 h2 (ix1 p) = ∑ q : Fin 3200, x (ix2 p q) := by
  refine (Ideal.multiReduction_add_single x _ reduces_S512x3200_S512 h1 h2 (ix1 p)).trans ?_
  exact Finset.sum_congr rfl fun q _ => congrArg x (funext fun a => Fin.ext (by match a with | ⟨0, _⟩ => rfl | ⟨1, _⟩ => rfl))

/-- The new maximum at row p. -/
theorem pay9_apply (x : FVec Ideal S512x3200 .f32) (s0 : FVec Ideal S512x1 .f32) (p : Fin 512) :
    k0_pay9 (F := Ideal) x s0 (ix2 p (0 : Fin 1)) = max (s0 (ix2 p (0 : Fin 1))) (Finset.univ.fold max ⊥ (fun q : Fin 3200 => x (ix2 p q))) := by
  unfold k0_pay9
  exact congrArg (max (s0 (ix2 p (0 : Fin 1)))) ((shapeCast_a_a1_apply _ shapeCasts_S512_S512x1 p 0).trans (rowmax_apply x _ _ p))

/-- The new sum of shifted exponentials at row p: the old one rescaled to the new maximum, plus the tile's. -/
theorem pay10_apply (x : FVec Ideal S512x3200 .f32) (s0 s1 : FVec Ideal S512x1 .f32) (p : Fin 512) :
    k0_pay10 (F := Ideal) x s0 s1 (ix2 p (0 : Fin 1))
      = Ideal.exp (s0 (ix2 p (0 : Fin 1)) - k0_pay9 (F := Ideal) x s0 (ix2 p (0 : Fin 1))) * s1 (ix2 p (0 : Fin 1))
        + ∑ q : Fin 3200, Ideal.exp (x (ix2 p q) - k0_pay9 (F := Ideal) x s0 (ix2 p (0 : Fin 1))) := by
  unfold k0_pay10
  simp only [shapeCast_self, addf_apply, mulf_apply, subf_apply, exp_apply, shapeCast_a_a1_apply]
  refine congrArg (Ideal.exp (s0 (ix2 p (0 : Fin 1)) - k0_pay9 (F := Ideal) x s0 (ix2 p (0 : Fin 1))) * s1 (ix2 p (0 : Fin 1)) + ·)
    ((rowsum_apply _ _ _ p).trans ?_)
  simp only [subf_apply, exp_apply, broadcastTo_a1_ab_apply]

/-- The new weighted sum of logits at row p. -/
theorem pay11_apply (x t : FVec Ideal S512x3200 .f32) (w : FVec Ideal S1x3200 .f32) (s2 : FVec Ideal S512x1 .f32) (p : Fin 512) :
    k0_pay11 (F := Ideal) x t w s2 (ix2 p (0 : Fin 1))
      = s2 (ix2 p (0 : Fin 1)) + ∑ q : Fin 3200, t (ix2 p q) * w (ix2 (0 : Fin 1) q) * x (ix2 p q) := by
  unfold k0_pay11 k0_pay8
  simp only [shapeCast_self, addf_apply, shapeCast_a_a1_apply]
  refine congrArg (s2 (ix2 p (0 : Fin 1)) + ·) ((rowsum_apply _ _ _ p).trans ?_)
  simp only [mulf_apply, broadcastTo_1b_ab_apply]

/-- The new sum of weights at row p. -/
theorem pay1_apply (t : FVec Ideal S512x3200 .f32) (w : FVec Ideal S1x3200 .f32) (s3 : FVec Ideal S512x1 .f32) (p : Fin 512) :
    k0_pay1 (F := Ideal) (k0_pay8 t w) s3 (ix2 p (0 : Fin 1))
      = s3 (ix2 p (0 : Fin 1)) + ∑ q : Fin 3200, t (ix2 p q) * w (ix2 (0 : Fin 1) q) := by
  unfold k0_pay1 k0_pay8
  simp only [shapeCast_self, addf_apply, shapeCast_a_a1_apply]
  refine congrArg (s3 (ix2 p (0 : Fin 1)) + ·) ((rowsum_apply _ _ _ p).trans ?_)
  simp only [mulf_apply, broadcastTo_1b_ab_apply]

/-- The column stored as the maximum is the new maximum itself. -/
theorem pay2_eq (v : FVec Ideal S512x1 .f32) : k0_pay2 (F := Ideal) v = v := by
  unfold k0_pay2; exact shapeCast_self _ _

/-- ROW p OF A POINT: the four new columns at row p are the streamed update of the four old ones by row p of the tile. -/
theorem next_row (x t : FVec Ideal S512x3200 .f32) (w : FVec Ideal S1x3200 .f32) (s0 s1 s2 s3 : FVec Ideal S512x1 .f32) (p : Fin 512) :
    (k0_pay2 (F := Ideal) (k0_pay9 x s0) (ix2 p (0 : Fin 1)), k0_pay10 (F := Ideal) x s0 s1 (ix2 p (0 : Fin 1)), k0_pay11 (F := Ideal) x t w s2 (ix2 p (0 : Fin 1)),
        k0_pay1 (F := Ideal) (k0_pay8 t w) s3 (ix2 p (0 : Fin 1)))
      = step (fun q : Fin 3200 => x (ix2 p q)) (fun q => t (ix2 p q)) (fun q => w (ix2 (0 : Fin 1) q))
          (s0 (ix2 p (0 : Fin 1)), s1 (ix2 p (0 : Fin 1)), s2 (ix2 p (0 : Fin 1)), s3 (ix2 p (0 : Fin 1))) := by
  rw [pay2_eq, pay10_apply, pay11_apply, pay1_apply, pay9_apply]
  rfl

/-- Before the first tile of a block of rows the four columns are (-∞, 0, 0, 0) at every row. -/
theorem first_row (p : Fin 512) :
    ((k0_pay4 (F := Ideal)) (ix2 p (0 : Fin 1)), (k0_pay5 (F := Ideal)) (ix2 p (0 : Fin 1)), (k0_pay6 (F := Ideal)) (ix2 p (0 : Fin 1)),
        (k0_pay7 (F := Ideal)) (ix2 p (0 : Fin 1))) = start := by
  unfold k0_pay4 k0_pay5 k0_pay6 k0_pay7 start
  simp only [shapeCast_self, broadcast_apply]
  refine Prod.ext neg_inf (Prod.ext ?_ (Prod.ext ?_ ?_)) <;> exact Ideal.ofBits_zero_f32

/-- The value stored after the last tile, at row p: the loss from the row's last state. -/
theorem last_row (s0 s1 s2 s3 : FVec Ideal S512x1 .f32) (p : Fin 512) :
    k0_pay3 (F := Ideal) s0 s1 s2 s3 (ix1 p) = finish (s0 (ix2 p (0 : Fin 1)), s1 (ix2 p (0 : Fin 1)), s2 (ix2 p (0 : Fin 1)), s3 (ix2 p (0 : Fin 1))) := by
  unfold k0_pay3 finish
  simp only [shapeCast_a1_a_apply, addf_apply, mulf_apply, subf_apply, log_apply, broadcast_apply]
  rw [show (Scalar.ofBits .f32 0x00000000#32 : Ideal .f32) = 0 from Ideal.ofBits_zero_f32]

end Cert.KernelIdeal.Tile

end
-- ==== Proof.Blocks.lean ====
/-
  Where each window's block sits in its array. Grid point t works on the block of rows t / 10 and the tile of columns
  t % 10: entry (p, q) of the logits' (or the targets') block is entry (512·(t / 10) + p, 3200·(t % 10) + q) of the array,
  entry (0, q) of the weights' block is weight 3200·(t % 10) + q (the weights reach the kernel reshaped to one row), and
  entry p of the output block is row 512·(t / 10) + p of the result.
-/
import proofs.«112712_j58497454571824_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps over the grid: the row block is t / 10, the column tile t % 10. -/
theorem idx_facts : ∀ t : Fin cfg0.N, win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = 0 ∧ win0_2.index t (1 : Fin 2) = t.val % 10
    ∧ win0_3.index t (0 : Fin 1) = t.val / 10 :=
  (by decide +kernel : ∀ t : Fin grid0.N, _)

/-- Entry (p, q) of the logits' block at point t. -/
theorem logits_block (c : Dev nD) (t : Fin cfg0.N) (p : Fin 512) (q : Fin 3200) (r : Fin 4096) (j : Fin 32000)
    (hr : r.val = 512 * (t.val / 10) + p.val) (hj : j.val = 3200 * (t.val % 10) + q.val) :
    (iblk m c 0 t : Vec F S512x3200 .f32) (ix2 p q) = V m c main_arg0 (ix2 r j) := by
  obtain ⟨e0, e1, -⟩ := idx_facts t
  show V m c main_arg0 (((cfg0.win 0).blk t).view.emb (ix2 p q)) = V m c main_arg0 (ix2 r j)
  refine congrArg (V m c main_arg0) (funext fun a => Fin.ext ?_)
  match a with
  | ⟨0, _⟩ => show win0_0.index t (0 : Fin 2) * 512 + 1 * p.val = r.val; rw [e0, hr]; omega
  | ⟨1, _⟩ => show win0_0.index t (1 : Fin 2) * 3200 + 1 * q.val = j.val; rw [e1, hj]; omega

/-- Entry (p, q) of the targets' block at point t. -/
theorem targets_block (c : Dev nD) (t : Fin cfg0.N) (p : Fin 512) (q : Fin 3200) (r : Fin 4096) (j : Fin 32000)
    (hr : r.val = 512 * (t.val / 10) + p.val) (hj : j.val = 3200 * (t.val % 10) + q.val) :
    (iblk m c 1 t : Vec F S512x3200 .f32) (ix2 p q) = V m c main_arg1 (ix2 r j) := by
  obtain ⟨-, -, e0, e1, -⟩ := idx_facts t
  show V m c main_arg1 (((cfg0.win 1).blk t).view.emb (ix2 p q)) = V m c main_arg1 (ix2 r j)
  refine congrArg (V m c main_arg1) (funext fun a => Fin.ext ?_)
  match a with
  | ⟨0, _⟩ => show win0_1.index t (0 : Fin 2) * 512 + 1 * p.val = r.val; rw [e0, hr]; omega
  | ⟨1, _⟩ => show win0_1.index t (1 : Fin 2) * 3200 + 1 * q.val = j.val; rw [e1, hj]; omega

/-- The one-row array the kernel reads its weights from is the weights' vector, reshaped before the region. -/
theorem weights_row (c : Dev nD) :
    (V m c main_v0 : S1x32000.Idx → Elt F .f32) = shapeCast S1x32000 (m ((c : Thread nD τ).loc main_arg2)) shapeCasts_S32000_S1x32000 := by
  show StableHlo.after hostOps0 (fun b => m (c, b)) (Proc.devRef .tc main_v0) = _
  after_results
  rfl

/-- Entry (0, q) of the weights' block at point t. -/
theorem weights_block (c : Dev nD) (t : Fin cfg0.N) (q : Fin 3200) (j : Fin 32000) (hj : j.val = 3200 * (t.val % 10) + q.val) :
    (iblk m c 2 t : Vec F S1x3200 .f32) (ix2 (0 : Fin 1) q) = m ((c : Thread nD τ).loc main_arg2) (ix1 j) := by
  obtain ⟨-, -, -, -, e0, e1, -⟩ := idx_facts t
  have e : (iblk m c 2 t : Vec F S1x3200 .f32) (ix2 (0 : Fin 1) q) = V m c main_v0 (ix2 (0 : Fin 1) j) := by
    show V m c main_v0 (((cfg0.win 2).blk t).view.emb (ix2 (0 : Fin 1) q)) = V m c main_v0 (ix2 (0 : Fin 1) j)
    refine congrArg (V m c main_v0) (funext fun a => Fin.ext ?_)
    match a with
    | ⟨0, _⟩ => show win0_2.index t (0 : Fin 2) * 1 + 1 * 0 = 0; rw [e0]
    | ⟨1, _⟩ => show win0_2.index t (1 : Fin 2) * 3200 + 1 * q.val = j.val; rw [e1, hj]; omega
  rw [e, weights_row]
  exact shapeCast_a_1a_apply _ _ (0 : Fin 1) j

end Cert.KernelIdeal.Blocks

end
-- ==== Proof.Tiles.lean ====
/-
  A row of N columns read in tiles of b columns: column b·k + q is entry q of tile k. Reading a row past its end gives 0,
  so that the tiles are defined for every k; on finite data the streamed loss over the tiles is the whole row's loss.
-/
import proofs.«112712_j58497454571824_1_alg».proof.Proof.RowAlgebra

noncomputable section

namespace Cert.SoftCE

/-- Entry `j` of a row of `N` columns, 0 past the end. -/
def colAt {N : ℕ} (f : Fin N → EReal) (j : ℕ) : EReal := if h : j < N then f ⟨j, h⟩ else 0

theorem colAt_val {N : ℕ} (f : Fin N → EReal) (j : Fin N) : colAt f j.val = f j := by
  unfold colAt; rw [dif_pos j.isLt]

/-- A finite row read at any column is a real. -/
theorem colAt_real {N : ℕ} (f : Fin N → EReal) (hf : ∀ j, ∃ r : ℝ, f j = (r : EReal)) (j : ℕ) :
    colAt f j = (((colAt f j).toReal : ℝ) : EReal) := by
  unfold colAt
  by_cases h : j < N
  · rw [dif_pos h]; obtain ⟨r, hr⟩ := hf ⟨j, h⟩; rw [hr, EReal.toReal_coe]
  · rw [dif_neg h, EReal.toReal_zero, EReal.coe_zero]

/-- THE TILED ROW: K + 1 tiles of width b of a finite row of (K + 1)·b columns give the whole row's loss. -/
theorem tiled_eq_whole {b : ℕ} (hb : 0 < b) (K N : ℕ) (hN : N = (K + 1) * b) (x t w : Fin N → EReal)
    (hx : ∀ j, ∃ r : ℝ, x j = (r : EReal)) (ht : ∀ j, ∃ r : ℝ, t j = (r : EReal)) (hw : ∀ j, ∃ r : ℝ, w j = (r : EReal)) :
    finish (run (fun k (q : Fin b) => colAt x (b * k + q.val)) (fun k q => colAt t (b * k + q.val))
        (fun k q => colAt w (b * k + q.val)) K) = whole x t w := by
  have ex : x = fun j : Fin N => (((colAt x j.val).toReal : ℝ) : EReal) := funext fun j => by rw [← colAt_real x hx, colAt_val]
  have et : t = fun j : Fin N => (((colAt t j.val).toReal : ℝ) : EReal) := funext fun j => by rw [← colAt_real t ht, colAt_val]
  have ew : w = fun j : Fin N => (((colAt w j.val).toReal : ℝ) : EReal) := funext fun j => by rw [← colAt_real w hw, colAt_val]
  have h := streamed_eq_whole hb K N hN (fun j => (colAt x j).toReal) (fun j => (colAt t j).toReal) (fun j => (colAt w j).toReal)
  rw [← ex, ← et, ← ew] at h
  simp only [← colAt_real x hx, ← colAt_real t ht, ← colAt_real w hw] at h
  exact h

end Cert.SoftCE

end
-- ==== Proof.RowsAt.lean ====
/-
  Row by row, the four carried columns are the streamed state of RowAlgebra.lean.

  At grid point n (block of rows n / 10, tile of columns n % 10), row p of the four columns is the state of row
  512·(n / 10) + p of the arrays after its tiles 0 … n % 10: at tile 0 the columns restart, at a later tile they continue
  from the point before, which works on the same block of rows. Tile k of a row is its columns 3200·k … 3200·k + 3199.
-/
import proofs.«112712_j58497454571824_1_alg».proof.Proof.Carried
import proofs.«112712_j58497454571824_1_alg».proof.Proof.TileStep
import proofs.«112712_j58497454571824_1_alg».proof.Proof.Blocks
import proofs.«112712_j58497454571824_1_alg».proof.Proof.Tiles

noncomputable section

namespace Cert.KernelIdeal.Rows

open Cert.KernelIdeal Cert.KernelIdeal.Gen Cert.KernelIdeal.Carried Cert.KernelIdeal.Tile Cert.KernelIdeal.Blocks
open Idealize.ShloMosaic Idealize.ShloMosaic.TcCoe Idealize.SL.Sem Idealize.ShloMosaic.ValueIdx Cert.SoftCE

variable (m : (ℓ : Loc nD τ sig) → Buf (Elt Ideal) ℓ)

/-- Row r of the logits as the region finds them. -/
abbrev logitRow (c : Dev nD) (r : Fin 4096) : Fin 32000 → EReal := fun j => V m c main_arg0 (ix2 r j)
/-- Row r of the targets. -/
abbrev targetRow (c : Dev nD) (r : Fin 4096) : Fin 32000 → EReal := fun j => V m c main_arg1 (ix2 r j)
/-- The class weights. -/
abbrev weightRow (c : Dev nD) : Fin 32000 → EReal := fun j => m ((c : Thread nD τ).loc main_arg2) (ix1 j)

/-- Tile k of row r of the logits; rows past the array read 0. -/
def logitTile (c : Dev nD) (r : ℕ) : ℕ → Fin 3200 → EReal :=
  fun k q => if h : r < 4096 then colAt (logitRow m c ⟨r, h⟩) (3200 * k + q.val) else 0
/-- Tile k of row r of the targets. -/
def targetTile (c : Dev nD) (r : ℕ) : ℕ → Fin 3200 → EReal :=
  fun k q => if h : r < 4096 then colAt (targetRow m c ⟨r, h⟩) (3200 * k + q.val) else 0
/-- Tile k of the weights. -/
def weightTile (c : Dev nD) : ℕ → Fin 3200 → EReal := fun k q => colAt (weightRow m c) (3200 * k + q.val)

/-- Row p of four columns. -/
def rowOf (s : Cols Ideal) (p : Fin 512) : State :=
  (s.1 (ix2 p (0 : Fin 1)), s.2.1 (ix2 p (0 : Fin 1)), s.2.2.1 (ix2 p (0 : Fin 1)), s.2.2.2 (ix2 p (0 : Fin 1)))

theorem rowOf_next (x0 x1 : FVec Ideal S512x3200 .f32) (x2 : FVec Ideal S1x3200 .f32) (s : Cols Ideal) (p : Fin 512) :
    rowOf (next x0 x1 x2 s) p
      = step (fun q : Fin 3200 => x0 (ix2 p q)) (fun q => x1 (ix2 p q)) (fun q => x2 (ix2 (0 : Fin 1) q)) (rowOf s p) :=
  next_row x0 x1 x2 s.1 s.2.1 s.2.2.1 s.2.2.2 p

theorem rowOf_cols0 (p : Fin 512) : rowOf (cols0 (F := Ideal)) p = start := first_row p

/-- Row p of the logits' block at point n is tile n % 10 of row 512·(n / 10) + p. -/
theorem logit_rows (c : Dev nD) (n : ℕ) (h : n < cfg0.N) (p : Fin 512) :
    (fun q : Fin 3200 => (iblk m c 0 ⟨n, h⟩ : FVec Ideal S512x3200 .f32) (ix2 p q)) = logitTile m c (512 * (n / 10) + p.val) (n % 10) := by
  have hN : n < 80 := lt_of_lt_of_eq h (show cfg0.N = 80 from N_0)
  have hr : 512 * (n / 10) + p.val < 4096 := by have := p.isLt; omega
  funext q
  have hj : 3200 * (n % 10) + q.val < 32000 := by have := q.isLt; omega
  unfold logitTile colAt
  rw [dif_pos hr, dif_pos hj]
  exact logits_block m c ⟨n, h⟩ p q ⟨_, hr⟩ ⟨_, hj⟩ rfl rfl

/-- Row p of the targets' block at point n. -/
theorem target_rows (c : Dev nD) (n : ℕ) (h : n < cfg0.N) (p : Fin 512) :
    (fun q : Fin 3200 => (iblk m c 1 ⟨n, h⟩ : FVec Ideal S512x3200 .f32) (ix2 p q)) = targetTile m c (512 * (n / 10) + p.val) (n % 10) := by
  have hN : n < 80 := lt_of_lt_of_eq h (show cfg0.N = 80 from N_0)
  have hr : 512 * (n / 10) + p.val < 4096 := by have := p.isLt; omega
  funext q
  have hj : 3200 * (n % 10) + q.val < 32000 := by have := q.isLt; omega
  unfold targetTile colAt
  rw [dif_pos hr, dif_pos hj]
  exact targets_block m c ⟨n, h⟩ p q ⟨_, hr⟩ ⟨_, hj⟩ rfl rfl

/-- The weights' block at point n. -/
theorem weight_rows (c : Dev nD) (n : ℕ) (h : n < cfg0.N) :
    (fun q : Fin 3200 => (iblk m c 2 ⟨n, h⟩ : FVec Ideal S1x3200 .f32) (ix2 (0 : Fin 1) q)) = weightTile m c (n % 10) := by
  have hN : n < 80 := lt_of_lt_of_eq h (show cfg0.N = 80 from N_0)
  funext q
  have hj : 3200 * (n % 10) + q.val < 32000 := by have := q.isLt; omega
  unfold weightTile colAt
  rw [dif_pos hj]
  exact weights_block m c ⟨n, h⟩ q ⟨_, hj⟩ rfl

/-- One point's update of row p, read from the arrays. -/
theorem rowOf_point (c : Dev nD) (n : ℕ) (h : n < cfg0.N) (p : Fin 512) (s : Cols Ideal) :
    rowOf (next (iblk m c 0 ⟨n, h⟩) (iblk m c 1 ⟨n, h⟩) (iblk m c 2 ⟨n, h⟩) s) p
      = step (logitTile m c (512 * (n / 10) + p.val) (n % 10)) (targetTile m c (512 * (n / 10) + p.val) (n % 10))
          (weightTile m c (n % 10)) (rowOf s p) := by
  rw [← logit_rows m c n h p, ← target_rows m c n h p, ← weight_rows m c n h]
  exact rowOf_next (iblk m c 0 ⟨n, h⟩) (iblk m c 1 ⟨n, h⟩) (iblk m c 2 ⟨n, h⟩) s p

/-- THE CARRIED COLUMNS, ROW BY ROW: after point n, row p holds the streamed state of row 512·(n / 10) + p after tiles 0 … n % 10. -/
theorem rows_at (c : Dev nD) (n : ℕ) : ∀ (h : n < cfg0.N) (p : Fin 512),
    rowOf (cols m c n h) p
      = run (logitTile m c (512 * (n / 10) + p.val)) (targetTile m c (512 * (n / 10) + p.val)) (weightTile m c) (n % 10) := by
  induction n with
  | zero =>
    intro h p
    rw [cols_zero, rowOf_point, rowOf_cols0]
    rfl
  | succ n ih =>
    intro h p
    rw [cols_succ, rowOf_point]
    by_cases h0 : (n + 1) % 10 = 0
    · rw [if_pos h0, rowOf_cols0, h0]
      rfl
    · have e1 : (n + 1) / 10 = n / 10 := by omega
      have e2 : (n + 1) % 10 = n % 10 + 1 := by omega
      rw [if_neg h0, ih (Nat.lt_of_succ_lt h) p, e1, e2]
      rfl

end Cert.KernelIdeal.Rows

end
-- ==== Proof.Spec.lean ====
/-
  The specification both programs meet: from logits X and targets T (4096 rows × 32000 classes) and class weights W,
  the loss of row r is the whole-row soft-target cross entropy of RowAlgebra.lean,
      - Σ_j (T r j · W j) · ((X r j - M_r) - log Σ_j' exp (X r j' - M_r)),   M_r the row's maximum,
  and the result is the mean of the 4096 row losses (their sum from 0, divided by 4096).
-/
import proofs.«112712_j58497454571824_1_alg».proof.Proof.RowAlgebra
import Idealize.ShloMosaic.Lib.ValueIdx

noncomputable section

namespace Cert.SoftCE

open Idealize.ShloMosaic Idealize.ShloMosaic.ValueIdx

/-- The loss of each row. -/
def rowLosses (X T : (⟨2, ![4096, 32000]⟩ : Shape).Idx → EReal) (W : (⟨1, ![32000]⟩ : Shape).Idx → EReal) :
    (⟨1, ![4096]⟩ : Shape).Idx → EReal :=
  fun i => whole (fun j : Fin 32000 => X (ix2 (⟨(i 0).val, (i 0).isLt⟩ : Fin 4096) j))
    (fun j : Fin 32000 => T (ix2 (⟨(i 0).val, (i 0).isLt⟩ : Fin 4096) j)) (fun j : Fin 32000 => W (ix1 j))

theorem rowLosses_apply (X T : (⟨2, ![4096, 32000]⟩ : Shape).Idx → EReal) (W : (⟨1, ![32000]⟩ : Shape).Idx → EReal) (r : Fin 4096) :
    rowLosses X T W (ix1 r) = whole (fun j : Fin 32000 => X (ix2 r j)) (fun j : Fin 32000 => T (ix2 r j)) (fun j : Fin 32000 => W (ix1 j)) := rfl

end Cert.SoftCE

end
-- ==== Proof.Final.lean ====
/-
  The idealized kernel's run, read: the result is the mean of the row losses of Spec.lean.

  The output's blocks are written back at the last tile of each block of rows only (points 9, 19, … 79); the block written
  at point t holds, at row p, the loss computed from the four carried columns, which row by row are the streamed state of row
  512·(t / 10) + p after all ten tiles (RowsAt.lean); for finite arrays that is the whole row's loss (Tiles.lean). The eight
  blocks tile the 4096 rows, so after the region the array of row losses is `rowLosses`. The host then sums it from 0 and
  divides by 4096.
-/
import proofs.«112712_j58497454571824_1_alg».proof.Proof.RowsAt
import proofs.«112712_j58497454571824_1_alg».proof.Proof.Spec

noncomputable section

namespace Cert.KernelIdeal.Final

open Cert.KernelIdeal Cert.KernelIdeal.Gen Cert.KernelIdeal.Carried Cert.KernelIdeal.Tile Cert.KernelIdeal.Blocks Cert.KernelIdeal.Rows
open Idealize.ShloMosaic Idealize.ShloMosaic.TcCoe Idealize.SL.Sem Idealize.ShloMosaic.ValueIdx Cert.SoftCE
open Idealize.ShloMosaic.Pipeline (Dat)

variable (m : (ℓ : Loc nD τ sig) → Buf (Elt Ideal) ℓ) (ρ : Dev nD → PrngReg)

/-- Every entry of the three arrays, as the region finds them, is a real number. -/
def FiniteArgs (c : Dev nD) : Prop :=
  (∀ (r : Fin 4096) (j : Fin 32000), ∃ x : ℝ, logitRow m c r j = (x : EReal))
  ∧ (∀ (r : Fin 4096) (j : Fin 32000), ∃ x : ℝ, targetRow m c r j = (x : EReal))
  ∧ ∀ j : Fin 32000, ∃ x : ℝ, weightRow m c j = (x : EReal)

/-- The array of row losses of the arrays as the region finds them. -/
def losses (c : Dev nD) : S4096.Idx → EReal :=
  rowLosses (V m c main_arg0) (V m c main_arg1) (m ((c : Thread nD τ).loc main_arg2))

/-- The mean the host takes of an array of 4096 numbers: their sum from 0, over 4096. -/
def mean (y : S4096.Idx → EReal) : S_.Idx → EReal :=
  Host.divf (F := Ideal) (Host.reduceAdd (F := Ideal) y (constant (F := Ideal) S_ .f32 0x00000000#32) reducesTo_S4096_S_d0 h_S_)
    (constant (F := Ideal) S_ .f32 0x45800000#32)

/-- The tiles of a row inside the array are the row read in tiles. -/
theorem logitTile_eq (c : Dev nD) (r : Fin 4096) :
    logitTile m c r.val = fun k (q : Fin 3200) => colAt (logitRow m c r) (3200 * k + q.val) := by
  funext k q; unfold logitTile; rw [dif_pos r.isLt]
theorem targetTile_eq (c : Dev nD) (r : Fin 4096) :
    targetTile m c r.val = fun k (q : Fin 3200) => colAt (targetRow m c r) (3200 * k + q.val) := by
  funext k q; unfold targetTile; rw [dif_pos r.isLt]

/-- Row p of the block written at a last tile is the loss of row 512·(t / 10) + p. -/
theorem block_loss (c : Dev nD) (hfin : FiniteArgs m c) (t : Fin cfg0.N) (h9 : t.val % 10 = 9) (y : S512.Idx) :
    k0_pay3 (F := Ideal) (cols m c t.val t.isLt).1 (cols m c t.val t.isLt).2.1 (cols m c t.val t.isLt).2.2.1 (cols m c t.val t.isLt).2.2.2 y
      = losses m c (((cfg0.win 3).blk t).view.emb y) := by
  obtain ⟨p, rfl⟩ : ∃ p : Fin 512, y = ix1 p := ⟨y 0, eq_ix1 y⟩
  have hN : t.val < 80 := lt_of_lt_of_eq t.isLt (show cfg0.N = 80 from N_0)
  have hr : 512 * (t.val / 10) + p.val < 4096 := by have := p.isLt; omega
  obtain ⟨-, -, -, -, -, -, e3⟩ := idx_facts t
  have hemb : ((cfg0.win 3).blk t).view.emb (ix1 p) = ix1 (⟨512 * (t.val / 10) + p.val, hr⟩ : Fin 4096) :=
    funext fun a => Fin.ext (by
      match a with
      | ⟨0, _⟩ => show win0_3.index t (0 : Fin 1) * 512 + 1 * p.val = 512 * (t.val / 10) + p.val; rw [e3]; omega)
  rw [hemb, last_row]
  show finish (rowOf (cols m c t.val t.isLt) p) = _
  rw [rows_at m c t.val t.isLt p, h9, logitTile_eq m c ⟨_, hr⟩, targetTile_eq m c ⟨_, hr⟩]
  show finish (run _ _ (fun k (q : Fin 3200) => colAt (weightRow m c) (3200 * k + q.val)) 9) = _
  rw [tiled_eq_whole (b := 3200) (by norm_num) 9 32000 (by norm_num) _ _ _ (hfin.1 ⟨_, hr⟩) (hfin.2.1 ⟨_, hr⟩) hfin.2.2]
  rfl

/-- WHAT A LAST TILE WRITES BACK is its block of the row losses. -/
theorem flushed_eq (c : Dev nD) (hfin : FiniteArgs m c) (t : Fin cfg0.N) (hf : (cfg0.win 3).flush t = true) :
    (dats m 0 c).flushed 3 t = ((cfg0.win 3).blk t).view.read (Elt Ideal) (losses m c) := by
  have h9 : t.val % 10 = 9 := (flush0_3 t).mp hf
  show (cfg0.win 3).cut (grid0.coords t) ((dats m 0 c).after 3 t) = _
  rw [after0_3, outsAt_block m c t.val t.isLt h9]
  funext y
  exact block_loss m c hfin t h9 y

/-- Every row is in the block of its block of rows' last tile. -/
theorem cover (i : S4096.Idx) : ∃ t : Fin cfg0.N, (cfg0.win 3).flush t = true ∧ i ∈ ((cfg0.win 3).blk t).view.set := by
  have hi : (i 0).val < 4096 := (i 0).isLt
  have hN : cfg0.N = 80 := N_0
  let t : Fin cfg0.N := ⟨10 * ((i 0).val / 512) + 9, by rw [hN]; omega⟩
  obtain ⟨-, -, -, -, -, -, e3⟩ := idx_facts t
  refine ⟨t, (flush0_3 t).mpr (by show (10 * ((i 0).val / 512) + 9) % 10 = 9; omega), ?_⟩
  show i ∈ ((View.whole main_v1).slice (win0_3.rect t)).set
  rw [View.set_slice_whole, Rect.mem_set_unit]
  intro a
  match a with
  | ⟨0, _⟩ =>
    show win0_3.index t (0 : Fin 1) * 512 ≤ (i 0).val ∧ (i 0).val < win0_3.index t (0 : Fin 1) * 512 + 512
    rw [e3]
    show (10 * ((i 0).val / 512) + 9) / 10 * 512 ≤ (i 0).val ∧ (i 0).val < (10 * ((i 0).val / 512) + 9) / 10 * 512 + 512
    omega

/-- THE ARRAY OF ROW LOSSES after the region. -/
theorem final (c : Dev nD) (hfin : FiniteArgs m c) : (dats m 0 c).arrAt 3 cfg0.N = losses m c :=
  (dats m 0 c).arrAt_eq_of_cover 3 (losses m c) (fun t hf => flushed_eq m c hfin t hf) cover

/-- The host's lines after the region leave the mean of the row losses in the result. -/
theorem result_eq (c : Dev nD) (hfin : FiniteArgs m c) :
    Pipeline.afterTail₀ cfgs (dats m) 0 (V0 m) [hostOps1] c main_v3 = mean (losses m c) := by
  unfold Pipeline.afterTail₀
  show StableHlo.after hostOps1 _ (Proc.devRef .tc main_v3) = _
  after_results
  rw [(Pipeline.withArrays_arr spec0 launch0.win.arr_inj c _ _ 3).trans (final m c hfin)]
  rfl

/-- THE RUN, READ: the result is the mean of the row losses, the arguments are unchanged. -/
theorem run (hfin : ∀ c, FiniteArgs m c) :
    θ_run defs (onTc (τ := τ) (main (F := Ideal))) ⟨m, fun _ => 0, ρ⟩ fun r => ∀ c : Dev nD,
      r.2.mem ((c.tc : Thread nD τ).loc main_v3) = mean (losses m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.Reference.lean ====
/-
  The reference's array of row losses is the specification's.

  The reference takes, per row r, the maximum M of the logits (from -∞, and once more against -∞), shifts the row by it,
  takes log Σ exp of the shifted row (the sum from 0), subtracts it, multiplies by target · weight, sums over the row (from 0)
  and negates: literally the whole-row loss of RowAlgebra.lean, read one operation at a time.
-/
import proofs.«112712_j58497454571824_1_alg».proof.Proof.RefRead
import proofs.«112712_j58497454571824_1_alg».proof.Proof.Spec
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.SoftCE

/-- The word 0xFF800000 is -∞. -/
theorem neg_inf : Ideal.ofBits .f32 0xFF800000#32 = (⊥ : EReal) := by simp [Ideal.ofBits, Ideal.ieee]

variable (x0 x1 : (⟨S4096x32000, .f32⟩ : BufTy).Contents (Elt Ideal)) (x2 : (⟨S32000, .f32⟩ : BufTy).Contents (Elt Ideal))

/-- The reference's maximum of row r, from -∞. -/
theorem rowmax (r : Fin 4096) :
    val_main_call0_v0 (F := Ideal) x0 (ix1 r) = Finset.univ.fold max (⊥ : EReal) (fun j : Fin 32000 => x0 (ix2 r j)) := by
  unfold val_main_call0_v0
  show Host.reduce (max : EReal → EReal → EReal) x0 _ reducesTo_S4096x32000_S4096_d1 h_S_ (ix1 r) = _
  refine (Host.reduce_eq_fold_single (max : EReal → EReal → EReal) x0 _ reducesTo_S4096x32000_S4096_d1 (by decide) h_S_ (ix1 r)).trans ?_
  rw [val_main_call0_cst_apply, Ideal.ofBits_def, neg_inf]
  exact Finset.fold_congr fun j _ => congrArg x0 (funext fun a => Fin.ext (by match a with | ⟨0, _⟩ => rfl | ⟨1, _⟩ => rfl))

/-- The shift of row r: its maximum, once more against -∞. -/
theorem shift_eq (r : Fin 4096) :
    val_main_call0_v2 (F := Ideal) x0 (ix1 r) = max ⊥ (Finset.univ.fold max (⊥ : EReal) (fun j : Fin 32000 => x0 (ix2 r j))) := by
  rw [val_main_call0_v2_apply, val_main_call0_v1_apply, val_main_call0_cst_0_apply, rowmax, Ideal.ofBits_def, neg_inf]
  rfl

/-- A shifted logit. -/
theorem shifted_eq (r : Fin 4096) (k : Fin 32000) :
    val_main_call0_v5 (F := Ideal) x0 (ix2 r k)
      = x0 (ix2 r k) - max ⊥ (Finset.univ.fold max (⊥ : EReal) (fun j : Fin 32000 => x0 (ix2 r j))) := by
  have e : idx_main_call0_v3 (idx_main_call0_v4 (ix2 r k)) = ix1 r :=
    funext fun a => Fin.ext (by match a with | ⟨0, _⟩ => rfl)
  rw [val_main_call0_v5_apply, val_main_call0_v4_apply, val_main_call0_v3_apply, e, shift_eq]
  rfl

/-- The sum of the shifted exponentials of row r, from 0. -/
theorem expsum_eq (r : Fin 4096) :
    val_main_call0_v7 (F := Ideal) x0 (ix1 r)
      = 0 + ∑ k : Fin 32000, Ideal.exp (x0 (ix2 r k) - max ⊥ (Finset.univ.fold max (⊥ : EReal) (fun j : Fin 32000 => x0 (ix2 r j)))) := by
  have e : ∀ k : Fin 32000, idx_main_call0_v7 (ix1 r) k = ix2 r k := fun k =>
    funext fun a => Fin.ext (by match a with | ⟨0, _⟩ => rfl | ⟨1, _⟩ => rfl)
  rw [val_main_call0_v7_apply, val_main_call0_cst_1_apply, Ideal.ofBits_def, Ideal.ofBits_zero_f32]
  refine congrArg (0 + ·) (Finset.sum_congr rfl fun k _ => ?_)
  rw [e k, val_main_call0_v6_apply, shifted_eq]
  rfl

/-- A log-probability. -/
theorem logp_eq (r : Fin 4096) (k : Fin 32000) :
    val_main_v0 (F := Ideal) x0 (ix2 r k)
      = (x0 (ix2 r k) - max ⊥ (Finset.univ.fold max (⊥ : EReal) (fun j : Fin 32000 => x0 (ix2 r j))))
        - Ideal.log (0 + ∑ k' : Fin 32000, Ideal.exp (x0 (ix2 r k') - max ⊥ (Finset.univ.fold max (⊥ : EReal) (fun j : Fin 32000 => x0 (ix2 r j))))) := by
  have e : idx_main_call0_v8 (idx_main_call0_v10 (ix2 r k)) = ix1 r :=
    funext fun a => Fin.ext (by match a with | ⟨0, _⟩ => rfl)
  rw [val_main_v0_apply, shifted_eq, val_main_call0_v10_apply, val_main_call0_v9_apply, val_main_call0_v8_apply, e, expsum_eq,
    Ideal.subf_def, Ideal.hostUnary_log_def]

/-- A target times its class weight. -/
theorem tw_eq (r : Fin 4096) (k : Fin 32000) : val_main_v3 (F := Ideal) x1 x2 (ix2 r k) = x1 (ix2 r k) * x2 (ix1 k) := by
  have e : idx_main_v1 (idx_main_v2 (ix2 r k)) = ix1 k :=
    funext fun a => Fin.ext (by match a with | ⟨0, _⟩ => rfl)
  rw [val_main_v3_apply, val_main_v2_apply, val_main_v1_apply, e]
  rfl

/-- THE REFERENCE'S ROW LOSSES are the specification's. -/
theorem losses_eq : val_main_v6 (F := Ideal) x0 x1 x2 = rowLosses x0 x1 x2 := by
  funext i
  obtain ⟨r, rfl⟩ : ∃ r : Fin 4096, i = ix1 r := ⟨i 0, eq_ix1 i⟩
  have e : ∀ k : Fin 32000, idx_main_v5 (ix1 r) k = ix2 r k := fun k =>
    funext fun a => Fin.ext (by match a with | ⟨0, _⟩ => rfl | ⟨1, _⟩ => rfl)
  rw [rowLosses_apply, val_main_v6_apply, val_main_v5_apply, val_main_cst_apply, Ideal.ofBits_def, Ideal.ofBits_zero_f32]
  unfold whole
  show -(0 + ∑ k : Fin 32000, val_main_v4 (F := Ideal) x0 x1 x2 (idx_main_v5 (ix1 r) k)) = _
  refine congrArg (fun s : EReal => -(0 + s)) (Finset.sum_congr rfl fun k _ => ?_)
  rw [e k, val_main_v4_apply, tw_eq, logp_eq]
  rfl

end Cert.ReferenceIdeal.RefValue

end
-- ==== Proof.Finite.lean ====
/-
  The precondition read back: every entry of the three arrays is a real number.

  The printed predicate is  all |input| < +∞  and  all |target| < +∞  and  all |weight| < +∞,  each "all" a reduction by
  "and" from 1 over every entry. It holds (is 1) only if every compared entry gave 1; and |x| = max x (-x) is below +∞ exactly
  when x is neither +∞ nor -∞, that is, when x is a real.
-/
import proofs.«112712_j58497454571824_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs Cert.Pre_finite_inputs.Facts

instance : Subsingleton S_.Idx := ⟨fun a b => funext fun d => d.elim0⟩

/-- The word 0x7F800000 is +∞. -/
theorem pos_inf : Ideal.ofBits .f32 0x7F800000#32 = (⊤ : EReal) := by simp [Ideal.ofBits, Ideal.ieee]

/-- |x| < +∞ holds only of a real x. -/
theorem real_of_abs_lt (x : EReal) (h : Ideal.cmp .olt (max x (-x)) (Ideal.ofBits .f32 0x7F800000#32) = 1#1) :
    ∃ r : ℝ, x = (r : EReal) := by
  rw [pos_inf] at h
  induction x using EReal.rec with
  | bot => exfalso; revert h; simp [Ideal.cmp]
  | coe r => exact ⟨r, rfl⟩
  | top => exfalso; revert h; simp [Ideal.cmp]

variable [Facts]

/-- THE PRECONDITION, DECODED. -/
theorem finite_of_pre (a0 a1 : FVec Ideal S4096x32000 .f32) (a2 : FVec Ideal S32000 .f32)
    (h : fn (F := Ideal) a0 a1 a2 = fun _ => 1#1) :
    (∀ i, ∃ r : ℝ, a0 i = (r : EReal)) ∧ (∀ i, ∃ r : ℝ, a1 i = (r : EReal)) ∧ ∀ i, ∃ r : ℝ, a2 i = (r : EReal) := by
  have e := congrFun h ValueIdx.ix0
  dsimp only [fn] at e
  simp only [andi, IntOp.andi_eq_one] at e
  obtain ⟨⟨e0, e1⟩, e2⟩ := e
  refine ⟨fun i => ?_, fun i => ?_, fun i => ?_⟩
  · exact real_of_abs_lt (a0 i) (Host.reduce_andi_all _ _ _ _ _ e0 i)
  · exact real_of_abs_lt (a1 i) (Host.reduce_andi_all _ _ _ _ _ e1 i)
  · exact real_of_abs_lt (a2 i) (Host.reduce_andi_all _ _ _ _ _ e2 i)

end Cert.Pre_finite_inputs.Finite

end
-- ==== Proof.lean ====
/-
  A soft-target cross entropy with class weights, mean over 4096 rows of 32000 classes: a tiled kernel against a whole-row
  reference, equal over the extended reals for finite inputs.

  THE KERNEL streams each row through ten tiles of 3200 columns, keeping per row the running maximum m, the sum l of
  exp (x - m), the weighted sum a = Σ (t·w)·x and the weight sum b = Σ t·w; a new tile rescales l to the new maximum; after the last
  tile the row's loss is (0 - a) + (m + log l) · b. THE REFERENCE computes per row - Σ (t·w) · ((x - M) - log Σ exp (x - M)) with M
  the row's maximum. For finite inputs both are  - Σ (t·w)·x + (log Σ exp x) · Σ t·w  (RowAlgebra.lean): the shift cancels whatever
  real it is, and the rest is distributivity in ℝ; finiteness is what the precondition gives (Finite.lean). Both programs then take
  the same mean, the sum of the 4096 row losses from 0 divided by 4096, so equal row losses give equal results.

  The modules: RowAlgebra, Tiles, Spec (the mathematics of one row, and the specification); Layout, TileStep (the body's arithmetic
  at a row); Pieces, Carried (what the body leaves in its carried columns at each grid point, as a recursion over the points); Blocks
  (where each block sits in its array); RowsAt (row p of the columns is the streamed state of its row); Final (the kernel's run, read);
  RefRun, RefRead (the reference's run and its operations read at an index), Reference (the reference's row losses are the
  specification's); Finite (the precondition decoded). The idealization rewrote nothing, so `preserves` is `True`; the three frames
  are the generated frame runs.
-/
import proofs.«112712_j58497454571824_1_alg».proof.Defs
import proofs.«112712_j58497454571824_1_alg».proof.Proof.Gen.Kernel
import proofs.«112712_j58497454571824_1_alg».proof.Proof.Gen.Kernel.Frame
import proofs.«112712_j58497454571824_1_alg».proof.Proof.Gen.KernelIdeal
import proofs.«112712_j58497454571824_1_alg».proof.Proof.Gen.KernelIdeal.Frame
import proofs.«112712_j58497454571824_1_alg».proof.Proof.Gen.ReferenceIdeal
import proofs.«112712_j58497454571824_1_alg».proof.Proof.Gen.Pre_finite_inputs
import proofs.«112712_j58497454571824_1_alg».proof.Proof.Final
import proofs.«112712_j58497454571824_1_alg».proof.Proof.Reference
import proofs.«112712_j58497454571824_1_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every entry of the arrays the region finds is a real. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.FiniteArgs m c := by
  obtain ⟨f0, f1, f2⟩ := Cert.Pre_finite_inputs.Finite.finite_of_pre _ _ _ (hpre c)
  refine ⟨fun r j => ?_, fun r j => ?_, fun j => f2 _⟩
  · show ∃ x : ℝ, Cert.KernelIdeal.Gen.V m c Cert.KernelIdeal.main_arg0 (ix2 r j) = (x : EReal)
    rw [Cert.KernelIdeal.Gen.V_main_arg0]; exact f0 _
  · show ∃ x : ℝ, Cert.KernelIdeal.Gen.V m c Cert.KernelIdeal.main_arg1 (ix2 r j) = (x : EReal)
    rw [Cert.KernelIdeal.Gen.V_main_arg1]; exact f1 _

/-- At the ideal values the kernel's result is the mean of the specification's row losses (the kernel's run, read) and so is
    the reference's, of arguments that agree (its run, its operations read at an index). -/
theorem algebraic : Cert.algebraic_KernelIdeal_ReferenceIdeal := by
  intro m ρ m' ρ' hpre hagree
  refine ⟨fun c => Cert.KernelIdeal.Final.mean (Cert.KernelIdeal.Final.losses m c),
    Cert.KernelIdeal.Final.run m ρ (finite_args m hpre), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _).trans ?_
  rw [(hagree c).1, (hagree c).2.1, (hagree c).2.2]
  show Cert.KernelIdeal.Final.mean (Cert.ReferenceIdeal.Read.val_main_v6 (F := Ideal) _ _ _) = _
  refine congrArg Cert.KernelIdeal.Final.mean ((Cert.ReferenceIdeal.RefValue.losses_eq _ _ _).trans ?_)
  unfold Cert.KernelIdeal.Final.losses
  rw [Cert.KernelIdeal.Gen.V_main_arg0, Cert.KernelIdeal.Gen.V_main_arg1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
